-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S128x256 : Shape := ⟨2, ![128, 256]⟩
abbrev S800000 : Shape := ⟨1, ![800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_

variable [Facts]

def fn {F : FTy → Type} [FloatOps F] (main_arg0 : FVec F S50000x256 .f32) (main_arg1 : FVec F S128x256 .f32) (main_arg2 : IVec S800000 32) (main_arg3 : IVec S800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  main_v8
-- ==== Kernel.lean ====
abbrev S50000x256 : Shape := ⟨2, ![50000, 256]⟩
abbrev S128x256 : Shape := ⟨2, ![128, 256]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x128 : Shape := ⟨2, ![50000, 128]⟩
abbrev S5000x256 : Shape := ⟨2, ![5000, 256]⟩
abbrev S5000x1 : Shape := ⟨2, ![5000, 1]⟩
abbrev S5000x128 : Shape := ⟨2, ![5000, 128]⟩
abbrev S256x128 : Shape := ⟨2, ![256, 128]⟩
abbrev S800000x128 : Shape := ⟨2, ![800000, 128]⟩

abbrev nBuf : Space → Nat
  | .hbm => 39
  | .vmem => 13
  | .smem => 0
  | _ => 0

abbrev bufTy : (tb : Table) → Fin (tcTables nBuf tb) → BufTy
  | .hbm, ⟨0, _⟩ => ⟨S50000x256, .f32⟩
  | .hbm, ⟨1, _⟩ => ⟨S128x256, .f32⟩
  | .hbm, ⟨2, _⟩ => ⟨S800000, .i32⟩
  | .hbm, ⟨3, _⟩ => ⟨S800000, .i32⟩
  | .hbm, ⟨4, _⟩ => ⟨S_, .f32⟩
  | .hbm, ⟨5, _⟩ => ⟨S50000, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S_, .f32⟩
  | .hbm, ⟨15, _⟩ => ⟨S800000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S50000x128, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S5000x1, .f32⟩
  | .local _ .vmem, ⟨3, _⟩ => ⟨S5000x1, .f32⟩
  | .local _ .vmem, ⟨4, _⟩ => ⟨S128x256, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S5000x128, .f32⟩
  | .local _ .vmem, ⟨12, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_4 : Ref sig .tc := ⟨.hbm, 25, rfl⟩
abbrev main_v15 : Ref sig .tc := ⟨.hbm, 26, rfl⟩
abbrev main_v16 : Ref sig .tc := ⟨.hbm, 27, rfl⟩
abbrev main_c_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  shapeCasts_S50000_S50000x1 : S50000.ShapeCasts S50000x1
  inb_S5000x256_S5000x256_0_0 : ∀ a, (![0, 0] : Fin 2 → Nat) a + S5000x256.size a ≤ S5000x256.size a
  h_S5000x256 : 0 < S5000x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  shapeCasts_S5000x128_S5000x128 : S5000x128.ShapeCasts S5000x128
  broadcasts_S5000x1_S5000x128 : S5000x1.Broadcasts S5000x128
  scatter_S50000_S800000x1_S800000_n_0_0_1_wf : ScatterDims.WF S50000 S800000x1 S800000 [] [0] [0] 1
  dot_S5000x256_S256x128_S5000x128_1_0_0_1_n_n_wf : DotDims.WF S5000x256 S256x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S128x256 : Shape := ⟨2, ![128, 256]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S256x128 : Shape := ⟨2, ![256, 128]⟩
abbrev S50000x128 : Shape := ⟨2, ![50000, 128]⟩
abbrev S800000x128 : Shape := ⟨2, ![800000, 128]⟩

abbrev nBuf : Space → Nat
  | .hbm => 44
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S128x256, .f32⟩
  | .hbm, ⟨2, _⟩ => ⟨S800000, .i32⟩
  | .hbm, ⟨3, _⟩ => ⟨S800000, .i32⟩
  | .hbm, ⟨4, _⟩ => ⟨S_, .f32⟩
  | .hbm, ⟨5, _⟩ => ⟨S50000, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S_, .f32⟩
  | .hbm, ⟨15, _⟩ => ⟨S800000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S50000x256, .f32⟩
  | .hbm, ⟨25, _⟩ => ⟨S50000x256, .f32⟩
  | .hbm, ⟨26, _⟩ => ⟨S256x128, .f32⟩
  | .hbm, ⟨27, _⟩ => ⟨S50000x128, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x1, .f32⟩
  | .hbm, ⟨42, _⟩ => ⟨S50000x128, .f32⟩
  | .hbm, ⟨43, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_c_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  transposes_S128x256_S256x128_1_0 : S128x256.Transposes [1, 0] S256x128
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.BufferRun.lean ====
/-
  The kernel program's run with its result buffer named.

  The program is four stretches in a row: host operations (the degree histogram, its clamp and inverse square root),
  the projection kernel over ten row blocks, host operations again (the gather along edge sources and the sum into
  edge destinations), and the rescaling kernel over ten row blocks. The buffer contents at the four boundaries are a
  fold from the launch memory; this module states that every weakly fair execution ends with the result buffer at the
  last boundary's contents and the four argument arrays as launched. What those contents ARE, as a function of the
  arguments, is read off the fold in the modules that import this one.
-/
import proofs.«144636_j36086315221436_1_alg».proof.Proof.Gen.KernelIdeal.Frame

set_option maxRecDepth 16384

noncomputable section

namespace Cert.KernelIdeal.BufferRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result buffer holding the
    last boundary's contents and the arguments unchanged: the launch over the four segments, the last thread state
    (every unscoped buffer at the last boundary's contents) read against the final memory. -/
theorem run : θ_run defs (onTc (τ := τ) (main (F := F))) ⟨m, fun _ => 0, ρ⟩ (fun r => ∀ c : Dev nD,
      r.2.mem ((c.tc : Thread nD τ).loc main_v25) = W4 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v25 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.BufferRun

end
-- ==== Proof.GraphConv.lean ====
/-
  The two dense steps of a degree-normalised graph convolution, as whole-array functions over the extended reals.

  With `s` a column of one scale per node (the inverse square root of the clamped in-degree):
  * the PROJECTION sends node features `h` (50000 × 256) and weights `w` (128 × 256) to the 50000 × 128 array whose
    entry (r, c) is  Σₖ (h[r,k] · s[r]) · w[c,k]  — row r of `h` scaled by the node's factor, against row c of `w`;
  * the RESCALING sends an aggregated 50000 × 128 array `a` to  a[r,c] · s[r].
  Between the two sits the gather along edge sources and the sum into edge destinations, which both programs compute
  by the same host operations; nothing here depends on it.
-/
import Idealize.ShloMosaic.PureOps.Ideal
import Idealize.ShloMosaic.Lib.ValueIdx

noncomputable section

namespace Cert.GraphConv

open Idealize.ShloMosaic Idealize.ShloMosaic.ValueIdx

/-- Node features: 50000 nodes, 256 input channels. -/
abbrev Feat : Shape := ⟨2, ![50000, 256]⟩
/-- Weights: 128 output channels, 256 input channels. -/
abbrev Wgt : Shape := ⟨2, ![128, 256]⟩
/-- One scale per node, as a column. -/
abbrev Col : Shape := ⟨2, ![50000, 1]⟩
/-- Projected features: 50000 nodes, 128 output channels. -/
abbrev Out : Shape := ⟨2, ![50000, 128]⟩

/-- Entry (r, c) of the projection: row r of the features, each entry scaled by the node's factor, against row c of
    the weights. -/
def projAt (h : Feat.Idx → EReal) (s : Col.Idx → EReal) (w : Wgt.Idx → EReal) (r : Fin 50000) (c : Fin 128) : EReal :=
  ∑ k : Fin 256, (h (ix2 r k) * s (ix2 r 0)) * w (ix2 c k)

/-- The projection as a whole array. -/
def proj (h : Feat.Idx → EReal) (s : Col.Idx → EReal) (w : Wgt.Idx → EReal) : Out.Idx → EReal :=
  fun i => projAt h s w (i 0) (i 1)

/-- The rescaling as a whole array: every row multiplied by its node's factor. -/
def rescale (a : Out.Idx → EReal) (s : Col.Idx → EReal) : Out.Idx → EReal :=
  fun i => a i * s (ix2 (i 0) 0)

end Cert.GraphConv

end
-- ==== Proof.ProjectionBlock.lean ====
/-
  The projection kernel, read as a value.

  At grid point t the kernel loads rows 5000·t … 5000·t + 4999 of the node features, the same rows of the scale
  column, and the whole weight matrix, and stores a 5000 × 128 block: entry (p, q) is the matrix product of the scaled
  feature rows with the transposed weights. Over the extended reals the two narrowings to bfloat16 are the identity and
  the product into a zero accumulator is the plain sum  Σₖ (x0[p,k] · x1[p,0]) · x2[q,k].  The ten blocks are the
  ten row bands of ONE whole-array function — the projection of `GraphConv` — and they tile the output, so the output
  array ends holding exactly that function of the arrays the kernel found.
-/
import proofs.«144636_j36086315221436_1_alg».proof.Proof.Gen.KernelIdeal.Frame
import proofs.«144636_j36086315221436_1_alg».proof.Proof.GraphConv
import Idealize.ShloMosaic.Lib.Pipeline.Value
import Idealize.ShloMosaic.Lib.ValueIdx
import Idealize.ShloMosaic.PureOps.Ideal.Laws

set_option maxRecDepth 16384

noncomputable section

namespace Cert.KernelIdeal.ProjectionBlock

open Cert.KernelIdeal Cert.KernelIdeal.Gen
open Idealize.ShloMosaic Idealize.ShloMosaic.TcCoe Idealize.ShloMosaic.ValueIdx

/-! ## One block entry -/

/-- The left operand's row coordinate is the output's. -/
theorem lhs_row (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
/-- The right operand's column coordinate is the output's. -/
theorem rhs_col (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- Entry (p, q) of the stored block: the narrowings are the identity, the product into the zero accumulator is the sum
    over the 256 input channels, the column broadcast reads the scale of row p, the transpose swaps coordinates. -/
theorem payload_apply (x0 : FVec Ideal S5000x256 .f32) (x1 : FVec Ideal S5000x1 .f32) (x2 : FVec Ideal S128x256 .f32)
    (p : Fin 5000) (q : Fin 128) :
    k0_pay1 (F := Ideal) x0 x1 x2 (ix2 p q) = ∑ k : Fin 256, (x0 (ix2 p k) * x1 (ix2 p 0)) * x2 (ix2 q k) := by
  unfold k0_pay1
  refine (Ideal.matmul_constant_zero_apply dot_S5000x256_S256x128_S5000x128_1_0_0_1_n_n none _ _ (ix2 p q)).trans ?_
  rw [← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun a => Fin.ext (by
    match a with
    | ⟨0, _⟩ => exact lhs_row _ _
    | ⟨1, _⟩ => exact (dot_S5000x256_S256x128_S5000x128_1_0_0_1_n_n.lhsIdx_val_of_single rfl _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun a => Fin.ext (by
    match a with
    | ⟨0, _⟩ => exact (dot_S5000x256_S256x128_S5000x128_1_0_0_1_n_n.rhsIdx_val_of_single rfl _ _).trans hk
    | ⟨1, _⟩ => exact rhs_col _ _)
  rw [el, er]
  have hb : broadcastTo S5000x256 (shapeCast S5000x1 x1 shapeCasts_S5000x1_S5000x1) broadcasts_S5000x1_S5000x256 (ix2 p k) = x1 (ix2 p 0) := by
    rw [shapeCast_self]
    exact broadcastTo_apply x1 broadcasts_S5000x1_S5000x256 (ix2 p k) (ix2 p 0) (fun a => match a with
      | ⟨0, _⟩ => by show p.val = if (5000 : Nat) = 1 then 0 else p.val; rw [if_neg (by decide)]
      | ⟨1, _⟩ => by show (0 : Nat) = if (1 : Nat) = 1 then 0 else k.val; rw [if_pos rfl])
  have ht : transpose S256x128 [1, 0] (truncf .bf16 x2 bitsLt_bf16_f32) transposes_S128x256_p1_0_S256x128 (ix2 k q) = x2 (ix2 q k) :=
    (transpose_apply [1, 0] (truncf .bf16 x2 bitsLt_bf16_f32) transposes_S128x256_p1_0_S256x128 (ix2 k q) (ix2 q k) (fun b => match b with
      | ⟨0, _⟩ => rfl
      | ⟨1, _⟩ => rfl)).trans rfl
  show (x0 (ix2 p k) * broadcastTo S5000x256 (shapeCast S5000x1 x1 shapeCasts_S5000x1_S5000x1) broadcasts_S5000x1_S5000x256 (ix2 p k))
      * transpose S256x128 [1, 0] (truncf .bf16 x2 bitsLt_bf16_f32) transposes_S128x256_p1_0_S256x128 (ix2 k q) = _
  rw [hb, ht]

/-- The same entry when the three loaded blocks are known to be pieces of whole arrays `h`, `s`, `w`: it is the
    projection's entry at the array index `i` the block index `j` sits at. -/
theorem block_entry (h : GraphConv.Feat.Idx → EReal) (s : GraphConv.Col.Idx → EReal) (w : GraphConv.Wgt.Idx → EReal)
    (x0 : FVec Ideal S5000x256 .f32) (x1 : FVec Ideal S5000x1 .f32) (x2 : FVec Ideal S128x256 .f32)
    (j : S5000x128.Idx) (i : GraphConv.Out.Idx)
    (h0 : ∀ k : Fin 256, x0 (ix2 (j 0) k) = h (ix2 (i 0) k))
    (h1 : x1 (ix2 (j 0) 0) = s (ix2 (i 0) 0))
    (h2 : ∀ k : Fin 256, x2 (ix2 (j 1) k) = w (ix2 (i 1) k)) :
    k0_pay1 (F := Ideal) x0 x1 x2 j = GraphConv.proj h s w i := by
  obtain ⟨p, q, rfl⟩ : ∃ (p : Fin 5000) (q : Fin 128), j = ix2 p q := ⟨j 0, j 1, eq_ix2 j⟩
  rw [payload_apply]
  unfold GraphConv.proj GraphConv.projAt
  exact Finset.sum_congr rfl fun k _ => by rw [h0 k, h1, h2 k]

/-! ## From the ten blocks to the array -/

theorem origin : (![0, 0] : Fin 2 → Nat) = fun _ => 0 := funext fun a => by fin_cases a <;> rfl

/-- The printed index maps over the grid: the feature, scale and output windows are at row band t, the weight window
    does not move. -/
theorem bands : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

/-- What point t writes back is row band t of the projection of the arrays the region found. -/
theorem flushed_eq (c : Dev nD) (t : Fin cfg0.N) :
    (dat0 V c).flushed 3 t = ((cfg0.win 3).blk t).view.read (Elt Ideal) (GraphConv.proj (V c main_arg0) (V c main_v13) (V c main_arg1)) := by
  show (cfg0.win 3).cut (grid0.coords t) ((dat0 V c).after 3 t) = _
  rw [after0_3]
  unfold out0_3
  rw [View.canon_unit_zero origin]
  simp only [View.ld_unit_zero (S := S5000x256) origin, View.ld_unit_zero (S := S5000x1) origin, View.ld_unit_zero (S := S128x256) origin]
  obtain ⟨e0, e1, e2, e3, e4, e5, e6, e7⟩ := bands t
  funext j
  refine block_entry (V c main_arg0) (V c main_v13) (V c main_arg1) (iblk0 V c 0 t) (iblk0 V c 1 t) (iblk0 V c 2 t) j (((cfg0.win 3).blk t).view.emb j) ?_ ?_ ?_
  · intro k
    show V c main_arg0 (((cfg0.win 0).blk t).view.emb (ix2 (j 0) k)) = V c main_arg0 _
    refine congrArg _ (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 256 + 1 * k.val = k.val; omega
  · show V c main_v13 (((cfg0.win 1).blk t).view.emb (ix2 (j 0) 0)) = V c main_v13 _
    refine congrArg _ (funext fun a => Fin.ext ?_)
    match a with
    | ⟨0, _⟩ => show win0_1.index t (0 : Fin 2) * 5000 + 1 * (j 0).val = win0_3.index t (0 : Fin 2) * 5000 + 1 * (j 0).val; omega
    | ⟨1, _⟩ => show win0_1.index t (1 : Fin 2) * 1 + 1 * 0 = 0; omega
  · intro k
    show V c main_arg1 (((cfg0.win 2).blk t).view.emb (ix2 (j 1) k)) = V c main_arg1 _
    refine congrArg _ (funext fun a => Fin.ext ?_)
    match a with
    | ⟨0, _⟩ => show win0_2.index t (0 : Fin 2) * 128 + 1 * (j 1).val = win0_3.index t (1 : Fin 2) * 128 + 1 * (j 1).val; omega
    | ⟨1, _⟩ => show win0_2.index t (1 : Fin 2) * 256 + 1 * k.val = k.val; omega

end

/-- An index of the output array is in point t's block iff each coordinate is in the block's range on its axis. -/
theorem mem_band (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v14).slice (win0_3.rect t)).set ↔ _
  rw [View.set_slice_whole, Rect.mem_set_unit]
  exact Iff.rfl

/-- Row r lies in band r / 5000, which is written back: the ten bands cover the output. -/
theorem bands_cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : (i 0).val / 5000 < cfg0.N := by show _ < grid0.N; rw [N_0]; omega
  obtain ⟨-, -, -, -, -, -, e6, e7⟩ := bands ⟨(i 0).val / 5000, hN⟩
  have e6' : win0_3.index ⟨(i 0).val / 5000, hN⟩ (0 : Fin 2) = (i 0).val / 5000 := e6
  refine ⟨⟨(i 0).val / 5000, hN⟩, flush0_3 _, ?_⟩
  rw [mem_band]
  intro a
  match a with
  | ⟨0, _⟩ => show win0_3.index ⟨(i 0).val / 5000, hN⟩ (0 : Fin 2) * 5000 ≤ (i 0).val ∧ (i 0).val < win0_3.index ⟨(i 0).val / 5000, hN⟩ (0 : Fin 2) * 5000 + 5000; omega
  | ⟨1, _⟩ => show win0_3.index ⟨(i 0).val / 5000, hN⟩ (1 : Fin 2) * 128 ≤ (i 1).val ∧ (i 1).val < win0_3.index ⟨(i 0).val / 5000, hN⟩ (1 : Fin 2) * 128 + 128; omega

/-- The output array after the region: the projection of the arrays the region found. -/
theorem final (V : (c : Dev nD) → (b : Ref sig .tc) → Buf (Elt Ideal) ((c : Thread nD τ).loc b)) (c : Dev nD) :
    (dat0 V c).arrAt 3 cfg0.N = GraphConv.proj (V c main_arg0) (V c main_v13) (V c main_arg1) :=
  (dat0 V c).arrAt_eq_of_cover 3 _ (fun t _ => flushed_eq V c t) bands_cover

end Cert.KernelIdeal.ProjectionBlock

end
-- ==== Proof.RescaleBlock.lean ====
/-
  The rescaling kernel, read as a value.

  At grid point t the kernel loads rows 5000·t … 5000·t + 4999 of the aggregated features and of the scale column and
  stores their product, every row multiplied by its node's factor: entry (p, q) of the block is  x0[p,q] · x1[p,0].
  The ten blocks are the ten row bands of the whole-array rescaling of `GraphConv` and tile the output, so the
  output array ends holding that function of the arrays the kernel found.
-/
import proofs.«144636_j36086315221436_1_alg».proof.Proof.Gen.KernelIdeal.Frame
import proofs.«144636_j36086315221436_1_alg».proof.Proof.GraphConv
import Idealize.ShloMosaic.Lib.Pipeline.Value
import Idealize.ShloMosaic.Lib.ValueIdx
import Idealize.ShloMosaic.PureOps.Ideal.Laws

set_option maxRecDepth 16384

noncomputable section

namespace Cert.KernelIdeal.RescaleBlock

open Cert.KernelIdeal Cert.KernelIdeal.Gen
open Idealize.ShloMosaic Idealize.ShloMosaic.TcCoe Idealize.ShloMosaic.ValueIdx

/-! ## One block entry -/

/-- Entry (p, q) of the stored block: the column broadcast reads the scale of row p. -/
theorem payload_apply (x0 : FVec Ideal S5000x128 .f32) (x1 : FVec Ideal S5000x1 .f32) (p : Fin 5000) (q : Fin 128) :
    k1_pay1 (F := Ideal) x0 x1 (ix2 p q) = x0 (ix2 p q) * x1 (ix2 p 0) := by
  unfold k1_pay1
  have hb : broadcastTo S5000x128 (shapeCast S5000x1 x1 shapeCasts_S5000x1_S5000x1) broadcasts_S5000x1_S5000x128 (ix2 p q) = x1 (ix2 p 0) := by
    rw [shapeCast_self]
    exact broadcastTo_apply x1 broadcasts_S5000x1_S5000x128 (ix2 p q) (ix2 p 0) (fun a => match a with
      | ⟨0, _⟩ => by show p.val = if (5000 : Nat) = 1 then 0 else p.val; rw [if_neg (by decide)]
      | ⟨1, _⟩ => by show (0 : Nat) = if (1 : Nat) = 1 then 0 else q.val; rw [if_pos rfl])
  show shapeCast S5000x128 x0 shapeCasts_S5000x128_S5000x128 (ix2 p q)
      * broadcastTo S5000x128 (shapeCast S5000x1 x1 shapeCasts_S5000x1_S5000x1) broadcasts_S5000x1_S5000x128 (ix2 p q) = _
  rw [hb, shapeCast_self]

/-- The same entry when the two loaded blocks are known to be pieces of whole arrays `a`, `s`: it is the rescaling's
    entry at the array index `i` the block index `j` sits at. -/
theorem block_entry (a : GraphConv.Out.Idx → EReal) (s : GraphConv.Col.Idx → EReal)
    (x0 : FVec Ideal S5000x128 .f32) (x1 : FVec Ideal S5000x1 .f32)
    (j : S5000x128.Idx) (i : GraphConv.Out.Idx)
    (h0 : x0 j = a i) (h1 : x1 (ix2 (j 0) 0) = s (ix2 (i 0) 0)) :
    k1_pay1 (F := Ideal) x0 x1 j = GraphConv.rescale a s i := by
  obtain ⟨p, q, rfl⟩ : ∃ (p : Fin 5000) (q : Fin 128), j = ix2 p q := ⟨j 0, j 1, eq_ix2 j⟩
  rw [payload_apply, h0, h1]
  rfl

/-! ## From the ten blocks to the array -/

theorem origin : (![0, 0] : Fin 2 → Nat) = fun _ => 0 := funext fun a => by fin_cases a <;> rfl

/-- The printed index maps over the grid: all three windows are at row band t. -/
theorem bands : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b))

/-- What point t writes back is row band t of the rescaling of the arrays the region found. -/
theorem flushed_eq (c : Dev nD) (t : Fin cfg1.N) :
    (dat1 V c).flushed 2 t = ((cfg1.win 2).blk t).view.read (Elt Ideal) (GraphConv.rescale (V c main_v24) (V c main_v13)) := by
  show (cfg1.win 2).cut (grid1.coords t) ((dat1 V c).after 2 t) = _
  rw [after1_2]
  unfold out1_2
  rw [View.canon_unit_zero origin]
  simp only [View.ld_unit_zero (S := S5000x128) origin, View.ld_unit_zero (S := S5000x1) origin]
  obtain ⟨e0, e1, e2, e3, e4, e5⟩ := bands t
  funext j
  refine block_entry (V c main_v24) (V c main_v13) (iblk1 V c 0 t) (iblk1 V c 1 t) j (((cfg1.win 2).blk t).view.emb j) ?_ ?_
  · show V c main_v24 (((cfg1.win 0).blk t).view.emb j) = V c main_v24 _
    refine congrArg _ (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  · show V c main_v13 (((cfg1.win 1).blk t).view.emb (ix2 (j 0) 0)) = V c main_v13 _
    refine congrArg _ (funext fun a => Fin.ext ?_)
    match a with
    | ⟨0, _⟩ => show win1_1.index t (0 : Fin 2) * 5000 + 1 * (j 0).val = win1_2.index t (0 : Fin 2) * 5000 + 1 * (j 0).val; omega
    | ⟨1, _⟩ => show win1_1.index t (1 : Fin 2) * 1 + 1 * 0 = 0; omega

end

/-- An index of the output array is in point t's block iff each coordinate is in the block's range on its axis. -/
theorem mem_band (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v25).slice (win1_2.rect t)).set ↔ _
  rw [View.set_slice_whole, Rect.mem_set_unit]
  exact Iff.rfl

/-- Row r lies in band r / 5000, which is written back: the ten bands cover the output. -/
theorem bands_cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : (i 0).val / 5000 < cfg1.N := by show _ < grid1.N; rw [N_1]; omega
  obtain ⟨-, -, -, -, e4, e5⟩ := bands ⟨(i 0).val / 5000, hN⟩
  have e4' : win1_2.index ⟨(i 0).val / 5000, hN⟩ (0 : Fin 2) = (i 0).val / 5000 := e4
  refine ⟨⟨(i 0).val / 5000, hN⟩, flush1_2 _, ?_⟩
  rw [mem_band]
  intro a
  match a with
  | ⟨0, _⟩ => show win1_2.index ⟨(i 0).val / 5000, hN⟩ (0 : Fin 2) * 5000 ≤ (i 0).val ∧ (i 0).val < win1_2.index ⟨(i 0).val / 5000, hN⟩ (0 : Fin 2) * 5000 + 5000; omega
  | ⟨1, _⟩ => show win1_2.index ⟨(i 0).val / 5000, hN⟩ (1 : Fin 2) * 128 ≤ (i 1).val ∧ (i 1).val < win1_2.index ⟨(i 0).val / 5000, hN⟩ (1 : Fin 2) * 128 + 128; omega

/-- The output array after the region: the rescaling of the arrays the region found. -/
theorem final (V : (c : Dev nD) → (b : Ref sig .tc) → Buf (Elt Ideal) ((c : Thread nD τ).loc b)) (c : Dev nD) :
    (dat1 V c).arrAt 2 cfg1.N = GraphConv.rescale (V c main_v24) (V c main_v13) :=
  (dat1 V c).arrAt_eq_of_cover 2 _ (fun t _ => flushed_eq V c t) bands_cover

end Cert.KernelIdeal.RescaleBlock

end
-- ==== Proof.HostStretches.lean ====
/-
  The kernel program's host operations, read, and its result as ONE function of the arguments.

  Before the projection kernel the host computes one scale per node: the in-degree (a sum of ones into the edge
  destinations, negative destinations first shifted by the node count), clamped below by one, to the power −1/2; it is
  handed to both kernels as a 50000 × 1 column. Between the two kernels the host gathers the projected rows along the
  edge sources and sums them into the edge destinations. Neither stretch writes an argument, and the first kernel's
  input arrays leave it as they entered. Chaining the four boundaries:

      result = rescale (aggregate (proj h (column (scale dst)) W) src dst) (column (scale dst)).
-/
import proofs.«144636_j36086315221436_1_alg».proof.Proof.Gen.KernelIdeal.Frame
import proofs.«144636_j36086315221436_1_alg».proof.Proof.GraphConv
import proofs.«144636_j36086315221436_1_alg».proof.Proof.ProjectionBlock
import proofs.«144636_j36086315221436_1_alg».proof.Proof.RescaleBlock
import Idealize.ShloMosaic.Lib.StableHlo.Run
import Idealize.ShloMosaic.PureOps.Ideal

set_option maxRecDepth 16384

noncomputable section

namespace Cert.KernelIdeal.HostStretches

open Cert.KernelIdeal Cert.KernelIdeal.Gen
open Idealize.ShloMosaic Idealize.ShloMosaic.TcCoe Idealize.ShloMosaic.StableHlo Idealize.SL.Sem

/-- An edge endpoint with a negative value counted from the end: v + 50000 when v < 0, else v. -/
def wrapped (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

/-- One scale per node: the number of edges into the node, clamped below by one, to the power −1/2. -/
def scale (dst : IVec S800000 32) : FVec Ideal S50000 .f32 :=
  Host.powf (F := Ideal)
    (maximumf
      (Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 (wrapped dst))
        (broadcastInDim S800000 ![] bcast_S_S800000 (constant (F := Ideal) S_ .f32 0x3F800000#32)))
      (broadcastInDim S50000 ![] bcast_S_S50000 (constant (F := Ideal) S_ .f32 0x3F800000#32)))
    (broadcastInDim S50000 ![] bcast_S_S50000 (constant (F := Ideal) S_ .f32 0xBF000000#32))

/-- The scales as the 50000 × 1 column the kernels receive. -/
def column (s : FVec Ideal S50000 .f32) : FVec Ideal S50000x1 .f32 :=
  shapeCast S50000x1 s shapeCasts_S50000_S50000x1

/-- Row e of the gather is row src[e] of `y`; the aggregate sums the gathered rows into rows dst[e] of a zero array. -/
def aggregate (y : FVec Ideal S50000x128 .f32) (src dst : IVec S800000 32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 y
      (broadcastInDim S800000x1 ![0] bcast_S800000_S800000x1_0 (wrapped src)))

variable (m : (ℓ : Loc nD τ sig) → Buf (Elt Ideal) ℓ) (ρ : Dev nD → PrngReg)

/-! ## Before the projection kernel -/

/-- The projection kernel finds the scale column computed from the launch destinations. -/
theorem entry_column (c : Dev nD) : V1 m ρ c main_v13 = column (scale (m ((c : Thread nD τ).loc main_arg3))) := by
  show StableHlo.after hostOps0 (W0 m ρ c) (Proc.devRef .tc main_v13) = _
  after_results
  rfl

/-- It finds the features as launched. -/
theorem entry_features (c : Dev nD) : V1 m ρ c main_arg0 = m ((c : Thread nD τ).loc main_arg0) := by
  show StableHlo.after hostOps0 (W0 m ρ c) (Proc.devRef .tc main_arg0) = _
  after_results

/-- It finds the weights as launched. -/
theorem entry_weights (c : Dev nD) : V1 m ρ c main_arg1 = m ((c : Thread nD τ).loc main_arg1) := by
  show StableHlo.after hostOps0 (W0 m ρ c) (Proc.devRef .tc main_arg1) = _
  after_results

/-! ## After the projection kernel -/

/-- The projection kernel leaves its output at the projection of what it found. -/
theorem projected (c : Dev nD) : W2 m ρ c (Proc.devRef .tc main_v14)
    = GraphConv.proj (V1 m ρ c main_arg0) (V1 m ρ c main_v13) (V1 m ρ c main_arg1) :=
  (W2_arr m ρ c 3).trans (ProjectionBlock.final (V1 m ρ) c)

/-- It leaves the scale column, an input, as it found it. -/
theorem column_kept (c : Dev nD) : W2 m ρ c (Proc.devRef .tc main_v13) = V1 m ρ c main_v13 :=
  (W2_arr m ρ c 1).trans (((dat0 (V1 m ρ) c).arrAt_in 1 rfl _).trans (A_eq0 (V1 m ρ) c 1))

/-- The edge sources are still the launch sources. -/
theorem sources_kept (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results)

/-- The edge destinations are still the launch destinations. -/
theorem destinations_kept (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results)

/-! ## Before the rescaling kernel -/

/-- The rescaling kernel finds the aggregate of the projection kernel's output along the edges. -/
theorem entry_aggregate (c : Dev nD) : V3 m ρ c main_v24
    = aggregate (W2 m ρ c (Proc.devRef .tc main_v14)) (W2 m ρ c (Proc.devRef .tc main_arg2)) (W2 m ρ c (Proc.devRef .tc main_arg3)) := by
  show StableHlo.after hostOps1 (W2 m ρ c) (Proc.devRef .tc main_v24) = _
  after_results
  rfl

/-- It finds the scale column as the projection kernel left it. -/
theorem entry_column' (c : Dev nD) : V3 m ρ c main_v13 = W2 m ρ c (Proc.devRef .tc main_v13) := by
  show StableHlo.after hostOps1 (W2 m ρ c) (Proc.devRef .tc main_v13) = _
  after_results

/-! ## The result -/

/-- The program's result buffer at the last boundary, as one function of the launch arguments. -/
theorem result (c : Dev nD) : W4 m ρ c (Proc.devRef .tc main_v25)
    = GraphConv.rescale
        (aggregate
          (GraphConv.proj (m ((c : Thread nD τ).loc main_arg0)) (column (scale (m ((c : Thread nD τ).loc main_arg3))))
            (m ((c : Thread nD τ).loc main_arg1)))
          (m ((c : Thread nD τ).loc main_arg2)) (m ((c : Thread nD τ).loc main_arg3)))
        (column (scale (m ((c : Thread nD τ).loc main_arg3)))) := by
  refine (W4_arr m ρ c 2).trans ?_
  rw [RescaleBlock.final, entry_aggregate, entry_column', projected, column_kept, sources_kept, destinations_kept,
    entry_column, entry_features, entry_weights]

end Cert.KernelIdeal.HostStretches

end
-- ==== Proof.ReferenceStages.lean ====
/-
  The reference program's stages, read as the same two whole-array functions.

  The reference scales the features by the per-node factor broadcast along the channels, multiplies by the transposed
  weights on the host, gathers and sums along the edges, and multiplies by the factor again. Read index by index, its
  matrix product is the projection of `GraphConv` with the factor column, and its last product is the rescaling.
-/
import proofs.«144636_j36086315221436_1_alg».proof.Proof.Gen.ReferenceIdeal.Read
import proofs.«144636_j36086315221436_1_alg».proof.Proof.GraphConv

set_option maxRecDepth 16384

noncomputable section

namespace Cert.ReferenceIdeal.Stages

open Cert.ReferenceIdeal Cert.ReferenceIdeal.Gen Cert.ReferenceIdeal.Read
open Idealize.ShloMosaic Idealize.ShloMosaic.TcCoe Idealize.ShloMosaic.ValueIdx

/-- Entry (r, c) of the host's matrix product is Σₖ (h[r,k] · s[r]) · W[c,k], with `s` the factor column: the
    broadcast along the channels reads the column at (r, 0), the transpose reads the weights at (c, k). -/
theorem product_eq (x0 : (⟨S50000x256, .f32⟩ : BufTy).Contents (Elt Ideal)) (x1 : (⟨S128x256, .f32⟩ : BufTy).Contents (Elt Ideal))
    (x3 : (⟨S800000, .i32⟩ : BufTy).Contents (Elt Ideal)) :
    val_main_v17 (F := Ideal) x0 x1 x3 = GraphConv.proj x0 (val_main_v13 (F := Ideal) x3) x1 := by
  funext i
  rw [val_main_v17_apply]
  unfold GraphConv.proj GraphConv.projAt
  refine Finset.sum_congr rfl fun k _ => ?_
  rw [val_main_v15_apply, val_main_v14_apply, val_main_v16_apply]
  have e0 : lidx_main_v17 i k = ix2 (i 0) k := funext fun a => Fin.ext (by
    match a with
    | ⟨0, _⟩ => rfl
    | ⟨1, _⟩ => rfl)
  have e1 : idx_main_v14 (lidx_main_v17 i k) = ix2 (i 0) 0 := funext fun a => Fin.ext (by
    match a with
    | ⟨0, _⟩ => rfl
    | ⟨1, _⟩ => rfl)
  have e2 : idx_main_v16 (ridx_main_v17 i k) = ix2 (i 1) k := funext fun a => Fin.ext (by
    match a with
    | ⟨0, _⟩ => rfl
    | ⟨1, _⟩ => rfl)
  rw [e1, e2, e0]
  rfl

/-- The last stage multiplies every row of the summed rows by its node's factor. -/
theorem result_eq (x0 : (⟨S50000x256, .f32⟩ : BufTy).Contents (Elt Ideal)) (x1 : (⟨S128x256, .f32⟩ : BufTy).Contents (Elt Ideal))
    (x2 x3 : (⟨S800000, .i32⟩ : BufTy).Contents (Elt Ideal)) :
    val_main_v30 (F := Ideal) x0 x1 x2 x3
      = GraphConv.rescale (val_main_v27 (F := Ideal) x0 x1 x2 x3) (val_main_v28 (F := Ideal) x3) := by
  funext i
  rw [val_main_v30_apply, val_main_v29_apply]
  have e : idx_main_v29 i = ix2 (i 0) 0 := funext fun a => Fin.ext (by
    match a with
    | ⟨0, _⟩ => rfl
    | ⟨1, _⟩ => rfl)
  rw [e]
  rfl

end Cert.ReferenceIdeal.Stages

end
-- ==== Proof.SameFunction.lean ====
/-
  Both programs are one function of the arguments.

  The kernel program's result is  rescale (aggregate (proj h col W) src dst) col  with `col` the node scales as a
  column (module HostStretches). The reference computes the node scales, the gather along the sources and the sum
  into the destinations by the very same host operations; its matrix product is the projection and its last product
  the rescaling (module ReferenceStages). The one difference in spelling is how the scales become a column — the
  reference broadcasts the 50000 scales along a new unit axis, the kernel program reshapes them to 50000 × 1 — and
  both columns hold the scale of node r at (r, 0). No law of arithmetic is needed: the two sides are the same sums of
  the same products, so finiteness of the inputs plays no part.
-/
import proofs.«144636_j36086315221436_1_alg».proof.Proof.HostStretches
import proofs.«144636_j36086315221436_1_alg».proof.Proof.ReferenceStages
import Idealize.ShloMosaic.Lib.Pipeline.Value

set_option maxRecDepth 16384

noncomputable section

namespace Cert.SameFunction

open Idealize.ShloMosaic Idealize.ShloMosaic.TcCoe
open Cert.ReferenceIdeal.Read Cert.KernelIdeal.HostStretches

/-- The reference's node scales are the kernel program's: the same host operations of the edge destinations. -/
theorem scale_eq (x3 : IVec Cert.ReferenceIdeal.S800000 32) : val_main_v12 (F := Ideal) x3 = scale x3 := rfl

/-- The scales broadcast along a new unit axis and the scales reshaped to a column are the same column. -/
theorem column_eq (x3 : IVec Cert.ReferenceIdeal.S800000 32) : val_main_v13 (F := Ideal) x3 = column (scale x3) := by
  funext j
  rw [val_main_v13_apply, scale_eq]
  unfold column
  refine (shapeCast_apply (scale x3) Cert.KernelIdeal.Facts₀.shapeCasts_S50000_S50000x1 j (idx_main_v13 j) ?_).symm
  rw [Shape.rowMajor_val_one, Shape.rowMajor_val_two]
  have hj : (j 1).val < 1 := (j 1).isLt
  show (j 0).val = (j 0).val * 1 + (j 1).val
  omega

/-- The reference's gather along the sources and sum into the destinations is the kernel program's, of the
    reference's matrix product. -/
theorem aggregate_eq (x0 : FVec Ideal Cert.ReferenceIdeal.S50000x256 .f32) (x1 : FVec Ideal Cert.ReferenceIdeal.S128x256 .f32)
    (x2 x3 : IVec Cert.ReferenceIdeal.S800000 32) :
    val_main_v27 (F := Ideal) x0 x1 x2 x3 = aggregate (val_main_v17 (F := Ideal) x0 x1 x3) x2 x3 := rfl

/-- The reference's result, as the same function of the arguments as the kernel program's. -/
theorem reference_result (x0 : FVec Ideal Cert.ReferenceIdeal.S50000x256 .f32) (x1 : FVec Ideal Cert.ReferenceIdeal.S128x256 .f32)
    (x2 x3 : IVec Cert.ReferenceIdeal.S800000 32) :
    val_main_v30 (F := Ideal) x0 x1 x2 x3
      = GraphConv.rescale (aggregate (GraphConv.proj x0 (column (scale x3)) x1) x2 x3) (column (scale x3)) := by
  rw [Cert.ReferenceIdeal.Stages.result_eq, aggregate_eq, Cert.ReferenceIdeal.Stages.product_eq,
    show val_main_v28 (F := Ideal) x3 = val_main_v13 (F := Ideal) x3 from rfl, column_eq]

end Cert.SameFunction

end
-- ==== Proof.lean ====
/-
  A degree-normalised graph convolution: the kernel program against its plain reference, over the extended reals.

  With deg[n] the number of edges whose destination is node n, s[n] = max(deg[n], 1)^(−1/2), features h (50000 × 256),
  weights W (128 × 256) and edges (src[e], dst[e]), both programs compute, for node n and output channel c,

      out[n, c] = s[n] · Σ_{e : dst[e] = n}  Σₖ (h[src[e], k] · s[src[e]]) · W[c, k].

  The kernel program runs the two dense steps as kernels over ten bands of 5000 rows — the scaled projection
  (features narrowed to bfloat16 and multiplied into a zero accumulator, which over the extended reals is the plain
  sum) and the final rescaling — and leaves the degree count, the gather along the sources and the sum into the
  destinations to the host, where the reference has them too. So the two results are the same sums of the same
  products, term for term: nothing is rearranged and no input needs to be finite for the equality.

  The parts: `GraphConv` states the two dense steps as whole-array functions; `ProjectionBlock` and `RescaleBlock`
  show that each kernel's ten blocks are the row bands of its function and tile the output; `BufferRun` is the kernel
  program's run with its result buffer named; `HostStretches` reads the host operations between and around the kernels
  and chains everything into one function of the arguments; `ReferenceStages` reads the reference's matrix product and
  last product as the same two functions; `SameFunction` joins the two sides.

  Each program runs to completion without a fault and leaves its arguments as launched (the three frame claims); the
  idealisation rewrote nothing in the kernel program, so the fourth claim is trivial; the fifth is the equality above.
-/
import proofs.«144636_j36086315221436_1_alg».proof.Defs
import proofs.«144636_j36086315221436_1_alg».proof.Proof.Gen.Kernel
import proofs.«144636_j36086315221436_1_alg».proof.Proof.Gen.Kernel.Skeleton
import proofs.«144636_j36086315221436_1_alg».proof.Proof.Gen.Kernel.Launch
import proofs.«144636_j36086315221436_1_alg».proof.Proof.Gen.Kernel.Points
import proofs.«144636_j36086315221436_1_alg».proof.Proof.Gen.Kernel.Frame
import proofs.«144636_j36086315221436_1_alg».proof.Proof.Gen.KernelIdeal
import proofs.«144636_j36086315221436_1_alg».proof.Proof.Gen.KernelIdeal.Skeleton
import proofs.«144636_j36086315221436_1_alg».proof.Proof.Gen.KernelIdeal.Launch
import proofs.«144636_j36086315221436_1_alg».proof.Proof.Gen.KernelIdeal.Points
import proofs.«144636_j36086315221436_1_alg».proof.Proof.Gen.KernelIdeal.Frame
import proofs.«144636_j36086315221436_1_alg».proof.Proof.Gen.ReferenceIdeal
import proofs.«144636_j36086315221436_1_alg».proof.Proof.Gen.ReferenceIdeal.Run
import proofs.«144636_j36086315221436_1_alg».proof.Proof.Gen.ReferenceIdeal.Read
import proofs.«144636_j36086315221436_1_alg».proof.Proof.Gen.Pre_finite_inputs
import proofs.«144636_j36086315221436_1_alg».proof.Proof.BufferRun
import proofs.«144636_j36086315221436_1_alg».proof.Proof.HostStretches
import proofs.«144636_j36086315221436_1_alg».proof.Proof.SameFunction
import Idealize.ShloMosaic.Adequacy
import Idealize.ShloMosaic.Init

noncomputable section

namespace Cert.Proof

open Idealize.ShloMosaic Idealize.ShloMosaic.TcCoe Idealize.SL.Sem

/-- The kernel program, word for word, runs and keeps its arguments. -/
theorem frame_kernel : Cert.frame_Kernel := fun m ρ _ => Cert.Kernel.Gen.frame m ρ

/-- The kernel program over the extended reals runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments the two programs end with the same result: each side's run, its result
    read as the one function of the arguments, and the arguments' agreement. -/
theorem algebraic : Cert.algebraic_KernelIdeal_ReferenceIdeal := by
  intro m ρ m' ρ' _ hagree
  refine ⟨_, (θ_run Cert.KernelIdeal.defs _ _).mono
      (fun r h c => ⟨(h c).1.trans (Cert.KernelIdeal.HostStretches.result m ρ c), (h c).2⟩)
      (Cert.KernelIdeal.BufferRun.run m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.SameFunction.reference_result,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
